-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S7168x7168 : Shape := ⟨2, ![7168, 7168]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S7168x7168 : S_.BroadcastsInDim S7168x7168 (![] : Fin 0 → Fin S7168x7168.rank)
  reducesTo_S7168x7168_S_d0_1 : S7168x7168.ReducesTo [0, 1] S_

variable [Facts]

def fn {F : FTy → Type} [FloatOps F] (main_arg0 : FVec F S4096x2048 .f32) (main_arg1 : FVec F S7168x7168 .f32) (main_arg2 : FVec F S7168x7168 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S7168x7168 .f32 := Host.absf main_arg1
  let main_cst_0 : FVec F S_ .f32 := constant S_ .f32 0x7F800000#32
  let main_v5 : FVec F S7168x7168 .f32 := broadcastInDim S7168x7168 ![] bcast_S_S7168x7168 main_cst_0
  let main_v6 : IVec S7168x7168 1 := cmpf .olt main_v4 main_v5
  let main_c_1 : IVec S_ 1 := constantI S_ 1 1#1
  let main_v7 : IVec S_ 1 := (fun x v => Host.reduce IntOp.andi x v reducesTo_S7168x7168_S_d0_1 h_S_) main_v6 main_c_1
  let main_v8 : IVec S_ 1 := andi main_v3 main_v7
  let main_v9 : FVec F S7168x7168 .f32 := Host.absf main_arg2
  let main_cst_2 : FVec F S_ .f32 := constant S_ .f32 0x7F800000#32
  let main_v10 : FVec F S7168x7168 .f32 := broadcastInDim S7168x7168 ![] bcast_S_S7168x7168 main_cst_2
  let main_v11 : IVec S7168x7168 1 := cmpf .olt main_v9 main_v10
  let main_c_3 : IVec S_ 1 := constantI S_ 1 1#1
  let main_v12 : IVec S_ 1 := (fun x v => Host.reduce IntOp.andi x v reducesTo_S7168x7168_S_d0_1 h_S_) main_v11 main_c_3
  let main_v13 : IVec S_ 1 := andi main_v8 main_v12
  main_v13
-- ==== Kernel.lean ====
abbrev S4096x2048 : Shape := ⟨2, ![4096, 2048]⟩
abbrev S7168x7168 : Shape := ⟨2, ![7168, 7168]⟩
abbrev S2048x4096 : Shape := ⟨2, ![2048, 4096]⟩
abbrev S2048x1024 : Shape := ⟨2, ![2048, 1024]⟩
abbrev S4096x1024 : Shape := ⟨2, ![4096, 1024]⟩
abbrev S256x2048 : Shape := ⟨2, ![256, 2048]⟩
abbrev S256x1024 : Shape := ⟨2, ![256, 1024]⟩
abbrev S256x4096 : Shape := ⟨2, ![256, 4096]⟩

abbrev nBuf : Space → Nat
  | .hbm => 17
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S7168x7168, .f32⟩
  | .hbm, ⟨2, _⟩ => ⟨S7168x7168, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x2048, .bf16⟩
  | .hbm, ⟨13, _⟩ => ⟨S2048x4096, .bf16⟩
  | .hbm, ⟨14, _⟩ => ⟨S2048x1024, .bf16⟩
  | .hbm, ⟨15, _⟩ => ⟨S4096x1024, .bf16⟩
  | .hbm, ⟨16, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S2048x4096, .bf16⟩
  | .local _ .vmem, ⟨3, _⟩ => ⟨S2048x1024, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S7168x7168_S2048x4096_0_2048 : S7168x7168.Slices ![0, 2048] S2048x4096
  slices_S7168x7168_S2048x1024_0_6144 : S7168x7168.Slices ![0, 6144] S2048x1024
  slices_S7168x7168_S4096x1024_2048_6144 : S7168x7168.Slices ![2048, 6144] S4096x1024
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1024_S256x1024_0_0 : ∀ a, (![0, 0] : Fin 2 → Nat) a + S256x1024.size a ≤ S256x1024.size a
  h_S256x1024 : 0 < S256x1024.numel
  dot_S256x2048_S2048x4096_S256x4096_1_0_0_1_n_n_wf : DotDims.WF S256x2048 S2048x4096 S256x4096 [1] [0] [0] [1] [] []
  dot_S256x2048_S2048x1024_S256x1024_1_0_0_1_n_n_wf : DotDims.WF S256x2048 S2048x1024 S256x1024 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v9) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S7168x7168 : Shape := ⟨2, ![7168, 7168]⟩
abbrev S_ : Shape := ⟨0, ![]⟩
abbrev S4096x5120 : Shape := ⟨2, ![4096, 5120]⟩
abbrev S4096x7168 : Shape := ⟨2, ![4096, 7168]⟩
abbrev S7168x4096 : Shape := ⟨2, ![7168, 4096]⟩
abbrev S4096x4096 : Shape := ⟨2, ![4096, 4096]⟩
abbrev S4096x1024 : Shape := ⟨2, ![4096, 1024]⟩
abbrev S7168x1024 : Shape := ⟨2, ![7168, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S7168x7168, .f32⟩
  | .hbm, ⟨2, _⟩ => ⟨S7168x7168, .f32⟩
  | .hbm, ⟨3, _⟩ => ⟨S7168x7168, .f32⟩
  | .hbm, ⟨4, _⟩ => ⟨S_, .f32⟩
  | .hbm, ⟨5, _⟩ => ⟨S4096x5120, .f32⟩
  | .hbm, ⟨6, _⟩ => ⟨S4096x7168, .f32⟩
  | .hbm, ⟨7, _⟩ => ⟨S7168x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x1024, .f32⟩
  | .hbm, ⟨14, _⟩ => ⟨S4096x7168, .f32⟩
  | .hbm, ⟨15, _⟩ => ⟨S7168x1024, .f32⟩
  | .hbm, ⟨16, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S4096x5120 : S_.BroadcastsInDim S4096x5120 (![] : Fin 0 → Fin S4096x5120.rank)
  concatenates_S4096x2048_S4096x5120_S4096x7168_d1 : Shape.Concatenates [S4096x2048, S4096x5120] S4096x7168 1
  slices_S7168x7168_S7168x4096_0_2048 : S7168x7168.Slices ![0, 2048] S7168x4096
  bcast_S_S4096x4096 : S_.BroadcastsInDim S4096x4096 (![] : Fin 0 → Fin S4096x4096.rank)
  bcast_S_S4096x1024 : S_.BroadcastsInDim S4096x1024 (![] : Fin 0 → Fin S4096x1024.rank)
  concatenates_S4096x2048_S4096x4096_S4096x1024_S4096x7168_d1 : Shape.Concatenates [S4096x2048, S4096x4096, S4096x1024] S4096x7168 1
  slices_S7168x7168_S7168x1024_0_6144 : S7168x7168.Slices ![0, 6144] S7168x1024
  dot_S4096x7168_S7168x4096_S4096x4096_1_0_0_1_n_n_wf : DotDims.WF S4096x7168 S7168x4096 S4096x4096 [1] [0] [0] [1] [] []
  dot_S4096x7168_S7168x1024_S4096x1024_1_0_0_1_n_n_wf : DotDims.WF S4096x7168 S7168x1024 S4096x1024 [1] [0] [0] [1] [] []

variable [Facts₀]

def dot_S4096x7168_S7168x4096_S4096x4096_1_0_0_1_n_n : DotDims S4096x7168 S7168x4096 S4096x4096 where
  lhsContracting := [1]
  rhsContracting := [0]
  lhsNonContracting := [0]
  rhsNonContracting := [1]
  lhsBatch := []
  rhsBatch := []
  wf := dot_S4096x7168_S7168x4096_S4096x4096_1_0_0_1_n_n_wf
def dot_S4096x7168_S7168x1024_S4096x1024_1_0_0_1_n_n : DotDims S4096x7168 S7168x1024 S4096x1024 where
  lhsContracting := [1]
  rhsContracting := [0]
  lhsNonContracting := [0]
  rhsNonContracting := [1]
  lhsBatch := []
  rhsBatch := []
  wf := dot_S4096x7168_S7168x1024_S4096x1024_1_0_0_1_n_n_wf

class Facts : Prop extends Facts₀ where

variable [Facts]
-- ==== Proof.Spec.lean ====
/-
  The function both programs compute, written once over the extended reals, and the one law of sums that joins
  their two ways of computing it.

  The network has 2048 inputs, 4096 hidden units and 1024 outputs, and one 7168 × 7168 weight matrix W masked
  entrywise by M: unit r feeds unit c with weight W r c * M r c. A hidden unit j sees the inputs only,
      hidden b j = max (∑ k < 2048, x b k * (W ∘ M) k (2048 + j)) 0,
  and an output o sees the inputs and the hidden units,
      out b o = ∑ k < 2048, x b k * (W ∘ M) k (6144 + o) + ∑ j < 4096, hidden b j * (W ∘ M) (2048 + j) (6144 + o).
  One program slices the three blocks of W and M it needs and multiplies the slices; the other multiplies the
  whole matrices, pads the activations with zeros to all 7168 units and contracts over all of them. A sum over the
  7168 units splits into the sums over inputs, hidden units and outputs (`sum_fin_split3`), and a padded zero times
  any extended real is zero, so the padded terms vanish: no finiteness is needed anywhere.
-/
import Idealize.ShloMosaic.PureOps.Ideal
import Idealize.ShloMosaic.Lib.ValueIdx

noncomputable section

open scoped BigOperators

namespace Cert.MaskedMlp

open Idealize.ShloMosaic Idealize.ShloMosaic.ValueIdx

/-! ## Sums over consecutive ranges -/

/-- A sum over `n = a + b` consecutive indices is the sum over the first `a` plus the sum over the last `b`. -/
theorem sum_fin_split {M : Type*} [AddCommMonoid M] (a b n : Nat) (h : a + b = n) (f : Fin n → M) :
    ∑ k : Fin n, f k = (∑ k : Fin a, f ⟨k.val, by omega⟩) + ∑ l : Fin b, f ⟨a + l.val, by omega⟩ := by
  subst h
  rw [Fin.sum_univ_add]
  rfl

/-- The same for three consecutive ranges. -/
theorem sum_fin_split3 {M : Type*} [AddCommMonoid M] (a b c n : Nat) (h : a + b + c = n) (f : Fin n → M) :
    ∑ k : Fin n, f k = (∑ k : Fin a, f ⟨k.val, by omega⟩) + (∑ j : Fin b, f ⟨a + j.val, by omega⟩)
      + ∑ l : Fin c, f ⟨a + b + l.val, by omega⟩ := by
  rw [sum_fin_split a (b + c) n (by omega) f,
    sum_fin_split b c (b + c) rfl (fun l => f ⟨a + l.val, by omega⟩), ← add_assoc]
  congr 1
  refine Finset.sum_congr rfl fun l _ => congrArg f (Fin.ext ?_)
  show a + (b + l.val) = a + b + l.val
  omega

/-- A contraction over 7168 units whose left factor is `u` on the first 2048 and zero on the other 5120 is the
    contraction over the first 2048. -/
theorem sum_padded2 (f g : Fin 7168 → EReal) (u : Fin 2048 → EReal)
    (h1 : ∀ k : Fin 2048, f ⟨k.val, by omega⟩ = u k)
    (h2 : ∀ l : Fin 5120, f ⟨2048 + l.val, by omega⟩ = 0) :
    ∑ k : Fin 7168, f k * g k = ∑ k : Fin 2048, u k * g ⟨k.val, by omega⟩ := by
  rw [sum_fin_split 2048 5120 7168 rfl]
  have z : (∑ l : Fin 5120, f ⟨2048 + l.val, by omega⟩ * g ⟨2048 + l.val, by omega⟩) = 0 :=
    Finset.sum_eq_zero fun l _ => by rw [h2 l, zero_mul]
  rw [z, add_zero]
  exact Finset.sum_congr rfl fun k _ => by rw [h1 k]

/-- A contraction over 7168 units whose left factor is `u` on the first 2048, `v` on the next 4096 and zero on the
    last 1024 is the two contractions over the first two ranges. -/
theorem sum_padded3 (f g : Fin 7168 → EReal) (u : Fin 2048 → EReal) (v : Fin 4096 → EReal)
    (h1 : ∀ k : Fin 2048, f ⟨k.val, by omega⟩ = u k)
    (h2 : ∀ j : Fin 4096, f ⟨2048 + j.val, by omega⟩ = v j)
    (h3 : ∀ l : Fin 1024, f ⟨2048 + 4096 + l.val, by omega⟩ = 0) :
    ∑ k : Fin 7168, f k * g k
      = (∑ k : Fin 2048, u k * g ⟨k.val, by omega⟩) + ∑ j : Fin 4096, v j * g ⟨2048 + j.val, by omega⟩ := by
  rw [sum_fin_split3 2048 4096 1024 7168 rfl]
  have z : (∑ l : Fin 1024, f ⟨2048 + 4096 + l.val, by omega⟩ * g ⟨2048 + 4096 + l.val, by omega⟩) = 0 :=
    Finset.sum_eq_zero fun l _ => by rw [h3 l, zero_mul]
  rw [z, add_zero]
  congr 1
  · exact Finset.sum_congr rfl fun k _ => by rw [h1 k]
  · exact Finset.sum_congr rfl fun j _ => by rw [h2 j]

/-! ## The network -/

/-- The network over its three weight blocks: input→hidden `wxh`, input→output `wxo`, hidden→output `who`. -/
def net (x : (⟨2, ![4096, 2048]⟩ : Shape).Idx → EReal) (wxh : (⟨2, ![2048, 4096]⟩ : Shape).Idx → EReal)
    (wxo : (⟨2, ![2048, 1024]⟩ : Shape).Idx → EReal) (who : (⟨2, ![4096, 1024]⟩ : Shape).Idx → EReal)
    (b : Fin 4096) (o : Fin 1024) : EReal :=
  (∑ k : Fin 2048, x (ix2 b k) * wxo (ix2 k o))
    + ∑ j : Fin 4096, max (∑ k : Fin 2048, x (ix2 b k) * wxh (ix2 k j)) 0 * who (ix2 j o)

/-- The masked weight from unit `r` to unit `c`. -/
def masked (w mk : (⟨2, ![7168, 7168]⟩ : Shape).Idx → EReal) (r c : Fin 7168) : EReal :=
  w (ix2 r c) * mk (ix2 r c)

/-- Input `k` to hidden unit `j`: rows 0–2047, columns 2048–6143 of the masked matrix. -/
def blockXH (w mk : (⟨2, ![7168, 7168]⟩ : Shape).Idx → EReal) : (⟨2, ![2048, 4096]⟩ : Shape).Idx → EReal := fun i =>
  masked w mk ⟨(i 0).val, by have := idx2_lt0 i; omega⟩ ⟨2048 + (i 1).val, by have := idx2_lt1 i; omega⟩

/-- Input `k` to output `o`: rows 0–2047, columns 6144–7167. -/
def blockXO (w mk : (⟨2, ![7168, 7168]⟩ : Shape).Idx → EReal) : (⟨2, ![2048, 1024]⟩ : Shape).Idx → EReal := fun i =>
  masked w mk ⟨(i 0).val, by have := idx2_lt0 i; omega⟩ ⟨6144 + (i 1).val, by have := idx2_lt1 i; omega⟩

/-- Hidden unit `j` to output `o`: rows 2048–6143, columns 6144–7167. -/
def blockHO (w mk : (⟨2, ![7168, 7168]⟩ : Shape).Idx → EReal) : (⟨2, ![4096, 1024]⟩ : Shape).Idx → EReal := fun i =>
  masked w mk ⟨2048 + (i 0).val, by have := idx2_lt0 i; omega⟩ ⟨6144 + (i 1).val, by have := idx2_lt1 i; omega⟩

/-- The result array: the network's output for batch row `i 0` at output unit `i 1`. -/
def result (x : (⟨2, ![4096, 2048]⟩ : Shape).Idx → EReal) (w mk : (⟨2, ![7168, 7168]⟩ : Shape).Idx → EReal) :
    (⟨2, ![4096, 1024]⟩ : Shape).Idx → EReal := fun i =>
  net x (blockXH w mk) (blockXO w mk) (blockHO w mk) (i 0) (i 1)

end Cert.MaskedMlp

end
-- ==== Proof.Payload.lean ====
/-
  One grid point's arithmetic, read at an entry. The body multiplies its 256 rows of the input by the whole
  input→hidden block, clamps at zero, multiplies the clamped rows by the whole hidden→output block, and adds the
  product of the same 256 input rows with the input→output block. Each matrix product into a zero accumulator is,
  at an entry (p, q) and over the extended reals, the plain sum over the contracted axis of the products of row p
  of the left factor with column q of the right; the changes of float format in between are the identity. So the
  stored value at (p, q) is the network of `Cert.MaskedMlp.net` over the four loaded blocks.
-/
import proofs.«167280_j53669911330940_2_alg».proof.Proof.Gen.KernelIdeal.Skeleton
import proofs.«167280_j53669911330940_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The three matrix products at an entry -/

/-- Input rows times the input→hidden block: the left index keeps the row on axis 0, the right the column on axis 1. -/
theorem mm_hidden_lhs0 (i : S256x4096.Idx) (q : dot_S256x2048_S2048x4096_S256x4096_1_0_0_1_n_n.contr.Idx) : (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide),
    dif_pos (show (0 : Fin S256x2048.rank) ∈ dot_S256x2048_S2048x4096_S256x4096_1_0_0_1_n_n.lhsNonContracting by decide)]
  rfl
theorem mm_hidden_rhs1 (i : S256x4096.Idx) (q : dot_S256x2048_S2048x4096_S256x4096_1_0_0_1_n_n.contr.Idx) : (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide),
    dif_pos (show (1 : Fin S2048x4096.rank) ∈ dot_S256x2048_S2048x4096_S256x4096_1_0_0_1_n_n.rhsNonContracting by decide)]
  rfl
theorem mm_hidden (l : FVec Ideal S256x2048 .bf16) (r : FVec Ideal S2048x4096 .bf16) (p : Fin 256) (q : Fin 4096) :
    matmul (F := Ideal) dot_S256x2048_S2048x4096_S256x4096_1_0_0_1_n_n none l r (constant (F := Ideal) S256x4096 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p q) ((contrEquiv1 dot_S256x2048_S2048x4096_S256x4096_1_0_0_1_n_n 2048 rfl rfl).symm k) = ix2 p k := funext fun a => Fin.ext (by
    match a with
    | ⟨0, _⟩ => exact mm_hidden_lhs0 _ _
    | ⟨1, _⟩ => exact (dot_S256x2048_S2048x4096_S256x4096_1_0_0_1_n_n.lhsIdx_val_of_single rfl _ _).trans hk)
  have er : dot_S256x2048_S2048x4096_S256x4096_1_0_0_1_n_n.rhsIdx (ix2 p q) ((contrEquiv1 dot_S256x2048_S2048x4096_S256x4096_1_0_0_1_n_n 2048 rfl rfl).symm k) = ix2 k q := funext fun a => Fin.ext (by
    match a with
    | ⟨0, _⟩ => exact (dot_S256x2048_S2048x4096_S256x4096_1_0_0_1_n_n.rhsIdx_val_of_single rfl _ _).trans hk
    | ⟨1, _⟩ => exact mm_hidden_rhs1 _ _)
  rw [el, er]

/-- Input rows times the input→output block. -/
theorem mm_direct_lhs0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
theorem mm_direct_rhs1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl
theorem mm_direct (l : FVec Ideal S256x2048 .bf16) (r : FVec Ideal S2048x1024 .bf16) (p : Fin 256) (q : Fin 1024) :
    matmul (F := Ideal) dot_S256x2048_S2048x1024_S256x1024_1_0_0_1_n_n none l r (constant (F := Ideal) S256x1024 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact mm_direct_lhs0 _ _
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (dot_S256x2048_S2048x1024_S256x1024_1_0_0_1_n_n.rhsIdx_val_of_single rfl _ _).trans hk
    | ⟨1, _⟩ => exact mm_direct_rhs1 _ _)
  rw [el, er]

/-- Clamped hidden rows times the hidden→output block. -/
theorem mm_output_lhs0 (i : S256x1024.Idx) (q : dot_S256x4096_S4096x1024_S256x1024_1_0_0_1_n_n.contr.Idx) : (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl
theorem mm_output_rhs1 (i : S256x1024.Idx) (q : dot_S256x4096_S4096x1024_S256x1024_1_0_0_1_n_n.contr.Idx) : (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl
theorem mm_output (l : FVec Ideal S256x4096 .bf16) (r : FVec Ideal S4096x1024 .bf16) (p : Fin 256) (q : Fin 1024) :
    matmul (F := Ideal) dot_S256x4096_S4096x1024_S256x1024_1_0_0_1_n_n none l r (constant (F := Ideal) S256x1024 .f32 0x00000000#32) (ix2 p q)
      = ∑ k : Fin 4096, l (ix2 p k) * r (ix2 k q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun a => Fin.ext (by
    match a with
    | ⟨0, _⟩ => exact mm_output_lhs0 _ _
    | ⟨1, _⟩ => exact (dot_S256x4096_S4096x1024_S256x1024_1_0_0_1_n_n.lhsIdx_val_of_single rfl _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun a => Fin.ext (by
    match a with
    | ⟨0, _⟩ => exact (dot_S256x4096_S4096x1024_S256x1024_1_0_0_1_n_n.rhsIdx_val_of_single rfl _ _).trans hk
    | ⟨1, _⟩ => exact mm_output_rhs1 _ _)
  rw [el, er]

/-! ## The stored value at an entry -/

/-- The body's one stored value at row `p`, column `q` of the output block is the network over the four loaded
    blocks, with the block's rows in place of the batch. -/
theorem pay_apply (x0 : Vec Ideal S256x2048 .bf16) (x1 : Vec Ideal S2048x4096 .bf16) (x2 : Vec Ideal S2048x1024 .bf16)
    (x3 : Vec Ideal S4096x1024 .bf16) (p : Fin 256) (q : Fin 1024) :
    k0_pay1 (F := Ideal) x0 x1 x2 x3 (ix2 p q)
      = (∑ k : Fin 2048, x0 (ix2 p k) * x2 (ix2 k q))
        + ∑ j : Fin 4096, max (∑ k : Fin 2048, x0 (ix2 p k) * x1 (ix2 k j)) 0 * x3 (ix2 j q) := by
  unfold k0_pay1
  simp only [shapeCast_self]
  show matmul (F := Ideal) dot_S256x2048_S2048x1024_S256x1024_1_0_0_1_n_n none x0 x2
        (constant (F := Ideal) S256x1024 .f32 0x00000000#32) (ix2 p q)
      + matmul (F := Ideal) dot_S256x4096_S4096x1024_S256x1024_1_0_0_1_n_n none
        (truncf .bf16 (maximumf (matmul (F := Ideal) dot_S256x2048_S2048x4096_S256x4096_1_0_0_1_n_n none x0 x1
          (constant (F := Ideal) S256x4096 .f32 0x00000000#32))
          (broadcast S256x4096 (Scalar.ofBits (F := Ideal) .f32 0x00000000#32))) bitsLt_bf16_f32) x3
        (constant (F := Ideal) S256x1024 .f32 0x00000000#32) (ix2 p q) = _
  rw [mm_direct, mm_output]
  congr 1
  refine Finset.sum_congr rfl fun j _ => ?_
  show max (matmul (F := Ideal) dot_S256x2048_S2048x4096_S256x4096_1_0_0_1_n_n none x0 x1
      (constant (F := Ideal) S256x4096 .f32 0x00000000#32) (ix2 p j)) (Ideal.ofBits .f32 0x00000000#32) * x3 (ix2 j q) = _
  rw [mm_hidden, Ideal.ofBits_zero_f32]

end Cert.KernelIdeal.Body

end
-- ==== Proof.Staged.lean ====
/-
  The four arrays the grid reads, as the host leaves them before the grid runs.

  The input is staged by a change of float format only, which over the extended reals is the identity. Each of the
  three weight blocks is staged as: the block's rows and columns sliced out of the weight matrix, the same rows and
  columns sliced out of the mask, the two slices multiplied entry by entry, and a change of format. A slice at an
  entry reads the whole matrix at the entry shifted by the slice's offsets, so the staged block at (k, j) is the
  masked weight at the shifted position: the blocks of `Cert.MaskedMlp`.
-/
import proofs.«167280_j53669911330940_2_alg».proof.Proof.Gen.KernelIdeal.Frame
import proofs.«167280_j53669911330940_2_alg».proof.Proof.Spec
import Idealize.ShloMosaic.Lib.ValueIdx
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo
open Cert.MaskedMlp

variable (m : (ℓ : Loc nD τ sig) → Buf (Elt Ideal) ℓ)

/-- The staged input is the input: a change of format only. -/
theorem staged_input (c : Dev nD) :
    (V m c main_v9 : S4096x2048.Idx → EReal) = m ((c : Thread nD τ).loc main_arg0) := by
  dsimp only [Gen.V, Gen.hostOps0]
  after_results <;> rfl

/-- A slice of the weights times the same slice of the mask, at an entry, is the masked weight at the shifted entry. -/
theorem staged_xh_entry (w mk : S7168x7168.Idx → EReal) (i : S2048x4096.Idx) :
    extractStridedSlice S2048x4096 ![0, 2048] w slices_S7168x7168_S2048x4096_0_2048 i * extractStridedSlice S2048x4096 ![0, 2048] mk slices_S7168x7168_S2048x4096_0_2048 i
      = blockXH w mk i := by
  have hk : ∀ a : Fin S7168x7168.rank,
      ((ix2 (⟨(i 0).val, by have := idx2_lt0 i; omega⟩ : Fin 7168) (⟨2048 + (i 1).val, by have := idx2_lt1 i; omega⟩ : Fin 7168) : S7168x7168.Idx) a).val
        = (![0, 2048] : Fin 2 → Nat) a + (i (a.cast rfl)).val := fun a => by
    match a with
    | ⟨0, _⟩ => show (i 0).val = 0 + (i 0).val; omega
    | ⟨1, _⟩ => show 2048 + (i 1).val = 2048 + (i 1).val; omega
  rw [extractStridedSlice_apply ![0, 2048] w slices_S7168x7168_S2048x4096_0_2048 i _ hk, extractStridedSlice_apply ![0, 2048] mk slices_S7168x7168_S2048x4096_0_2048 i _ hk]
  rfl

/-- The staged input→hidden block is rows 0…, columns 2048… of the masked matrix. -/
theorem staged_xh (c : Dev nD) :
    (V m c main_v10 : S2048x4096.Idx → EReal)
      = blockXH (m ((c : Thread nD τ).loc main_arg1)) (m ((c : Thread nD τ).loc main_arg2)) := by
  have e : (V m c main_v10 : S2048x4096.Idx → EReal)
      = (truncf (F := Ideal) .bf16 (mulf (F := Ideal)
          (extractStridedSlice S2048x4096 ![0, 2048] (m ((c : Thread nD τ).loc main_arg1)) slices_S7168x7168_S2048x4096_0_2048)
          (extractStridedSlice S2048x4096 ![0, 2048] (m ((c : Thread nD τ).loc main_arg2)) slices_S7168x7168_S2048x4096_0_2048))
          bitsLt_bf16_f32 : S2048x4096.Idx → EReal) := by
    dsimp only [Gen.V, Gen.hostOps0]
    after_results <;> rfl
  rw [e]
  funext i
  exact staged_xh_entry (m ((c : Thread nD τ).loc main_arg1)) (m ((c : Thread nD τ).loc main_arg2)) i

/-- A slice of the weights times the same slice of the mask, at an entry, is the masked weight at the shifted entry. -/
theorem staged_xo_entry (w mk : S7168x7168.Idx → EReal) (i : S2048x1024.Idx) :
    extractStridedSlice S2048x1024 ![0, 6144] w slices_S7168x7168_S2048x1024_0_6144 i * extractStridedSlice S2048x1024 ![0, 6144] mk slices_S7168x7168_S2048x1024_0_6144 i
      = blockXO w mk i := by
  have hk : ∀ a : Fin S7168x7168.rank,
      ((ix2 (⟨(i 0).val, by have := idx2_lt0 i; omega⟩ : Fin 7168) (⟨6144 + (i 1).val, by have := idx2_lt1 i; omega⟩ : Fin 7168) : S7168x7168.Idx) a).val
        = (![0, 6144] : Fin 2 → Nat) a + (i (a.cast rfl)).val := fun a => by
    match a with
    | ⟨0, _⟩ => show (i 0).val = 0 + (i 0).val; omega
    | ⟨1, _⟩ => show 6144 + (i 1).val = 6144 + (i 1).val; omega
  rw [extractStridedSlice_apply ![0, 6144] w slices_S7168x7168_S2048x1024_0_6144 i _ hk, extractStridedSlice_apply ![0, 6144] mk slices_S7168x7168_S2048x1024_0_6144 i _ hk]
  rfl

/-- The staged input→output block is rows 0…, columns 6144… of the masked matrix. -/
theorem staged_xo (c : Dev nD) :
    (V m c main_v11 : S2048x1024.Idx → EReal)
      = blockXO (m ((c : Thread nD τ).loc main_arg1)) (m ((c : Thread nD τ).loc main_arg2)) := by
  have e : (V m c main_v11 : S2048x1024.Idx → EReal)
      = (truncf (F := Ideal) .bf16 (mulf (F := Ideal)
          (extractStridedSlice S2048x1024 ![0, 6144] (m ((c : Thread nD τ).loc main_arg1)) slices_S7168x7168_S2048x1024_0_6144)
          (extractStridedSlice S2048x1024 ![0, 6144] (m ((c : Thread nD τ).loc main_arg2)) slices_S7168x7168_S2048x1024_0_6144))
          bitsLt_bf16_f32 : S2048x1024.Idx → EReal) := by
    dsimp only [Gen.V, Gen.hostOps0]
    after_results <;> rfl
  rw [e]
  funext i
  exact staged_xo_entry (m ((c : Thread nD τ).loc main_arg1)) (m ((c : Thread nD τ).loc main_arg2)) i

/-- A slice of the weights times the same slice of the mask, at an entry, is the masked weight at the shifted entry. -/
theorem staged_ho_entry (w mk : S7168x7168.Idx → EReal) (i : S4096x1024.Idx) :
    extractStridedSlice S4096x1024 ![2048, 6144] w slices_S7168x7168_S4096x1024_2048_6144 i * extractStridedSlice S4096x1024 ![2048, 6144] mk slices_S7168x7168_S4096x1024_2048_6144 i
      = blockHO w mk i := by
  have hk : ∀ a : Fin S7168x7168.rank,
      ((ix2 (⟨2048 + (i 0).val, by have := idx2_lt0 i; omega⟩ : Fin 7168) (⟨6144 + (i 1).val, by have := idx2_lt1 i; omega⟩ : Fin 7168) : S7168x7168.Idx) a).val
        = (![2048, 6144] : Fin 2 → Nat) a + (i (a.cast rfl)).val := fun a => by
    match a with
    | ⟨0, _⟩ => show 2048 + (i 0).val = 2048 + (i 0).val; omega
    | ⟨1, _⟩ => show 6144 + (i 1).val = 6144 + (i 1).val; omega
  rw [extractStridedSlice_apply ![2048, 6144] w slices_S7168x7168_S4096x1024_2048_6144 i _ hk, extractStridedSlice_apply ![2048, 6144] mk slices_S7168x7168_S4096x1024_2048_6144 i _ hk]
  rfl

/-- The staged hidden→output block is rows 2048…, columns 6144… of the masked matrix. -/
theorem staged_ho (c : Dev nD) :
    (V m c main_v12 : S4096x1024.Idx → EReal)
      = blockHO (m ((c : Thread nD τ).loc main_arg1)) (m ((c : Thread nD τ).loc main_arg2)) := by
  have e : (V m c main_v12 : S4096x1024.Idx → EReal)
      = (truncf (F := Ideal) .bf16 (mulf (F := Ideal)
          (extractStridedSlice S4096x1024 ![2048, 6144] (m ((c : Thread nD τ).loc main_arg1)) slices_S7168x7168_S4096x1024_2048_6144)
          (extractStridedSlice S4096x1024 ![2048, 6144] (m ((c : Thread nD τ).loc main_arg2)) slices_S7168x7168_S4096x1024_2048_6144))
          bitsLt_bf16_f32 : S4096x1024.Idx → EReal) := by
    dsimp only [Gen.V, Gen.hostOps0]
    after_results <;> rfl
  rw [e]
  funext i
  exact staged_ho_entry (m ((c : Thread nD τ).loc main_arg1)) (m ((c : Thread nD τ).loc main_arg2)) i

end Cert.KernelIdeal.Staged

end
-- ==== Proof.KernelValue.lean ====
/-
  The kernel's result array is the network's result.

  Grid point t holds rows 256 t … 256 t + 255 of the input and all of the three weight blocks, and writes rows
  256 t … of the output: by the entry-wise reading of its arithmetic that is rows 256 t … of the network's result.
  The sixteen row blocks tile the 4096 rows (row r is in block r / 256), so the whole array ends holding the result.
-/
import proofs.«167280_j53669911330940_2_alg».proof.Proof.Gen.KernelIdeal.Value
import proofs.«167280_j53669911330940_2_alg».proof.Proof.Payload
import proofs.«167280_j53669911330940_2_alg».proof.Proof.Staged
import proofs.«167280_j53669911330940_2_alg».proof.Proof.Spec
import Idealize.ShloMosaic.Lib.ValueIdx
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.MaskedMlp

variable (m : (ℓ : Loc nD τ sig) → Buf (Elt Ideal) ℓ) (ρ : Dev nD → PrngReg)

/-! ## Where each window's block sits -/

theorem zero_offsets : (![0, 0] : Fin 2 → Nat) = fun _ => 0 := funext fun a => by fin_cases a <;> rfl

/-- Decided over the sixteen grid points: the input's block row is the output's, every other block index is zero,
    and the output's block row is at most 15. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every one of the sixteen block rows is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-! ## The blocks a grid point reads -/

/-- Row `p` of point `t`'s input block is row `R` of the input, where `R` is `p` rows into the point's block row. -/
theorem read_input (c : Dev nD) (t : Fin cfg0.N) (p : Fin 256) (k : Fin 2048) (R : Fin 4096)
    (hR : R.val = win0_4.index t (0 : Fin 2) * 256 + p.val) :
    iblk m c 0 t (ix2 p k) = (m ((c : Thread nD τ).loc main_arg0)) (ix2 R k) := by
  obtain ⟨e00, e01, e10, e11, e20, e21, e30, e31, e41, e40⟩ := idx_facts t
  show V m c main_v9 (((cfg0.win 0).blk t).view.emb (ix2 p k)) = _
  rw [Staged.staged_input]
  refine congrArg _ (funext fun a => Fin.ext ?_)
  match a with
  | ⟨0, _⟩ => show win0_0.index t (0 : Fin 2) * 256 + 1 * p.val = R.val; omega
  | ⟨1, _⟩ => show win0_0.index t (1 : Fin 2) * 2048 + 1 * k.val = k.val; omega

/-- Every point's input→hidden block is the whole block. -/
theorem read_xh (c : Dev nD) (t : Fin cfg0.N) (k : Fin 2048) (j : Fin 4096) :
    iblk m c 1 t (ix2 k j) = blockXH (m ((c : Thread nD τ).loc main_arg1)) (m ((c : Thread nD τ).loc main_arg2)) (ix2 k j) := by
  obtain ⟨e00, e01, e10, e11, e20, e21, e30, e31, e41, e40⟩ := idx_facts t
  show V m c main_v10 (((cfg0.win 1).blk t).view.emb (ix2 k j)) = _
  rw [Staged.staged_xh]
  refine congrArg _ (funext fun a => Fin.ext ?_)
  match a with
  | ⟨0, _⟩ => show win0_1.index t (0 : Fin 2) * 2048 + 1 * k.val = k.val; omega
  | ⟨1, _⟩ => show win0_1.index t (1 : Fin 2) * 4096 + 1 * j.val = j.val; omega

/-- Every point's input→output block is the whole block. -/
theorem read_xo (c : Dev nD) (t : Fin cfg0.N) (k : Fin 2048) (o : Fin 1024) :
    iblk m c 2 t (ix2 k o) = blockXO (m ((c : Thread nD τ).loc main_arg1)) (m ((c : Thread nD τ).loc main_arg2)) (ix2 k o) := by
  obtain ⟨e00, e01, e10, e11, e20, e21, e30, e31, e41, e40⟩ := idx_facts t
  show V m c main_v11 (((cfg0.win 2).blk t).view.emb (ix2 k o)) = _
  rw [Staged.staged_xo]
  refine congrArg _ (funext fun a => Fin.ext ?_)
  match a with
  | ⟨0, _⟩ => show win0_2.index t (0 : Fin 2) * 2048 + 1 * k.val = k.val; omega
  | ⟨1, _⟩ => show win0_2.index t (1 : Fin 2) * 1024 + 1 * o.val = o.val; omega

/-- Every point's hidden→output block is the whole block. -/
theorem read_ho (c : Dev nD) (t : Fin cfg0.N) (j : Fin 4096) (o : Fin 1024) :
    iblk m c 3 t (ix2 j o) = blockHO (m ((c : Thread nD τ).loc main_arg1)) (m ((c : Thread nD τ).loc main_arg2)) (ix2 j o) := by
  obtain ⟨e00, e01, e10, e11, e20, e21, e30, e31, e41, e40⟩ := idx_facts t
  show V m c main_v12 (((cfg0.win 3).blk t).view.emb (ix2 j o)) = _
  rw [Staged.staged_ho]
  refine congrArg _ (funext fun a => Fin.ext ?_)
  match a with
  | ⟨0, _⟩ => show win0_3.index t (0 : Fin 2) * 4096 + 1 * j.val = j.val; omega
  | ⟨1, _⟩ => show win0_3.index t (1 : Fin 2) * 1024 + 1 * o.val = o.val; omega

/-! ## What a grid point writes back -/

/-- Point `t` writes back its block of rows of the network's result. -/
theorem flushed_eq (c : Dev nD) (t : Fin cfg0.N) :
    (dats m 0 c).flushed 4 t = ((cfg0.win 4).blk t).view.read (Elt Ideal) (result (m ((c : Thread nD τ).loc main_arg0)) (m ((c : Thread nD τ).loc main_arg1)) (m ((c : Thread nD τ).loc main_arg2))) := by
  rw [Value.flushed4]
  unfold out0_4
  rw [View.canon_unit_zero zero_offsets]
  simp only [View.ld_unit_zero (S := S256x2048) zero_offsets, View.ld_unit_zero (S := S2048x4096) zero_offsets,
    View.ld_unit_zero (S := S2048x1024) zero_offsets, View.ld_unit_zero (S := S4096x1024) zero_offsets]
  obtain ⟨e00, e01, e10, e11, e20, e21, e30, e31, e41, e40⟩ := idx_facts t
  funext y
  obtain ⟨p, q, rfl⟩ : ∃ (p : Fin 256) (q : Fin 1024), y = ix2 p q := ⟨y 0, y 1, eq_ix2 y⟩
  show k0_pay1 (F := Ideal) (iblk m c 0 t) (iblk m c 1 t) (iblk m c 2 t) (iblk m c 3 t) (ix2 p q)
      = result (m ((c : Thread nD τ).loc main_arg0)) (m ((c : Thread nD τ).loc main_arg1)) (m ((c : Thread nD τ).loc main_arg2)) (((cfg0.win 4).blk t).view.emb (ix2 p q))
  refine (Body.pay_apply (iblk m c 0 t) (iblk m c 1 t) (iblk m c 2 t) (iblk m c 3 t) p q).trans ?_
  have hp : p.val < 256 := p.isLt
  have hR : win0_4.index t (0 : Fin 2) * 256 + p.val < 4096 := by omega
  have hE : ((cfg0.win 4).blk t).view.emb (ix2 p q)
      = (ix2 (⟨win0_4.index t (0 : Fin 2) * 256 + p.val, hR⟩ : Fin 4096) q : S4096x1024.Idx) := funext fun a => Fin.ext (by
    match a with
    | ⟨0, _⟩ => show win0_4.index t (0 : Fin 2) * 256 + 1 * p.val = win0_4.index t (0 : Fin 2) * 256 + p.val; omega
    | ⟨1, _⟩ => show win0_4.index t (1 : Fin 2) * 1024 + 1 * q.val = q.val; omega)
  refine Eq.trans ?_ (congrArg (result (m ((c : Thread nD τ).loc main_arg0)) (m ((c : Thread nD τ).loc main_arg1)) (m ((c : Thread nD τ).loc main_arg2))) hE).symm
  show _ = net (m ((c : Thread nD τ).loc main_arg0)) (blockXH (m ((c : Thread nD τ).loc main_arg1)) (m ((c : Thread nD τ).loc main_arg2))) (blockXO (m ((c : Thread nD τ).loc main_arg1)) (m ((c : Thread nD τ).loc main_arg2))) (blockHO (m ((c : Thread nD τ).loc main_arg1)) (m ((c : Thread nD τ).loc main_arg2)))
    (⟨win0_4.index t (0 : Fin 2) * 256 + p.val, hR⟩ : Fin 4096) q
  unfold net
  refine congrArg₂ (fun a b : EReal => a + b) ?_ ?_
  · exact Finset.sum_congr rfl fun k _ => congrArg₂ (fun a b : EReal => a * b)
      (read_input m c t p k ⟨win0_4.index t (0 : Fin 2) * 256 + p.val, hR⟩ rfl) (read_xo m c t k q)
  · exact Finset.sum_congr rfl fun j _ => congrArg₂ (fun a b : EReal => max a 0 * b)
      (Finset.sum_congr rfl fun k _ => congrArg₂ (fun a b : EReal => a * b)
        (read_input m c t p k ⟨win0_4.index t (0 : Fin 2) * 256 + p.val, hR⟩ rfl) (read_xh m c t k j))
      (read_ho m c t j q)

/-! ## The sixteen blocks tile the array -/

/-- An entry of the array is in point `t`'s block iff each coordinate is in the block's range on its axis. -/
theorem mem_blk (t : Fin cfg0.N) (i : S4096x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v13).slice (win0_4.rect t)).set ↔ _
  rw [View.set_slice_whole, Rect.mem_set_unit]
  exact Iff.rfl

/-- Row `r` lies in the block of the point whose block row is `r / 256`. -/
theorem cover (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 1024 ≤ (i 1).val ∧ (i 1).val < win0_4.index t (1 : Fin 2) * 1024 + 1024
    omega

/-- So the output array ends holding the network's result. -/
theorem final (c : Dev nD) : (dats m 0 c).arrAt 4 cfg0.N = result (m ((c : Thread nD τ).loc main_arg0)) (m ((c : Thread nD τ).loc main_arg1)) (m ((c : Thread nD τ).loc main_arg2)) :=
  (dats m 0 c).arrAt_eq_of_cover 4 _ (fun t _ => flushed_eq m c t) cover

/-! ## The run -/

/-- Every weakly fair execution of the idealized kernel ends with its result array at the network's result of the
    arguments, and the arguments unchanged. -/
theorem run : θ_run defs (onTc (τ := τ) (main (F := Ideal))) ⟨m, fun _ => 0, ρ⟩ fun r => ∀ c : Dev nD,
      r.2.mem ((c : Thread nD τ).loc main_v13) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefValue.lean ====
/-
  The host program, read entry by entry, is the network of `Cert.MaskedMlp.result`.

  It multiplies the whole weight matrix by the whole mask, and contracts over all 7168 units twice. For the hidden
  layer the left factor is the input followed by 5120 zeros, so of the 7168 products only the first 2048 survive
  (a zero times any extended real is zero): the hidden pre-activation is the sum over the inputs against columns
  2048… of the masked matrix, then clamped at zero. For the output layer the left factor is the input, then the
  4096 hidden activations, then 1024 zeros: the contraction is the sum over the inputs plus the sum over the hidden
  units, against columns 6144… . A slice of the entrywise product of two matrices at an entry is the product of
  the two entries at the shifted position.
-/
import proofs.«167280_j53669911330940_2_alg».proof.Proof.Gen.ReferenceIdeal.Read
import proofs.«167280_j53669911330940_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.MaskedMlp

variable (x0 : (⟨S4096x2048, .f32⟩ : BufTy).Contents (Elt Ideal)) (x1 x2 : (⟨S7168x7168, .f32⟩ : BufTy).Contents (Elt Ideal))

/-! ## The three zero paddings -/

theorem pad_hidden_zero (i : S4096x5120.Idx) : val_main_v1 (F := Ideal) i = 0 := by
  rw [val_main_v1_apply]
  exact Ideal.ofBits_zero_f32

theorem pad_output_zero (i : S4096x1024.Idx) : val_main_v6 (F := Ideal) i = 0 := by
  rw [val_main_v6_apply]
  exact Ideal.ofBits_zero_f32

theorem clamp_zero (i : S4096x4096.Idx) : val_main_call0_v0 (F := Ideal) i = 0 := by
  rw [val_main_call0_v0_apply]
  exact Ideal.ofBits_zero_f32

/-! ## The padded activations at a unit -/

/-- The first padded activation row at one of the 2048 inputs is the input. -/
theorem act0_input (j : S4096x7168.Idx) (b : Fin 4096) (k : Fin 2048) (h0 : (j 0).val = b.val) (h1 : (j 1).val = k.val) :
    val_main_v2 (F := Ideal) x0 j = x0 (ix2 b k) := by
  unfold val_main_v2
  exact concatenate_pair_apply_left (t := S4096x7168) (s₁ := S4096x2048) (s₂ := S4096x5120) (1 : Fin 2) x0 (val_main_v1 (F := Ideal)) concatenates_S4096x2048_S4096x5120_S4096x7168_d1 j rfl (ix2 b k)
    (fun a => match a with | ⟨0, _⟩ => h0.symm | ⟨1, _⟩ => h1.symm)

/-- … and at any later unit it is zero. -/
theorem act0_rest (j : S4096x7168.Idx) (b : Fin 4096) (l : Fin 5120) (h0 : (j 0).val = b.val) (h1 : (j 1).val = 2048 + l.val) :
    val_main_v2 (F := Ideal) x0 j = 0 := by
  unfold val_main_v2
  rw [concatenate_pair_apply_right (t := S4096x7168) (s₁ := S4096x2048) (s₂ := S4096x5120) (1 : Fin 2) x0 (val_main_v1 (F := Ideal)) concatenates_S4096x2048_S4096x5120_S4096x7168_d1 j rfl rfl (ix2 b l)
    (fun a ha => match a with | ⟨0, _⟩ => h0.symm | ⟨1, _⟩ => absurd rfl ha)
    (by show l.val + 2048 = (j 1).val; omega)]
  exact pad_hidden_zero _

/-! ## The masked matrix's two column blocks at an entry -/

/-- Columns 2048… of the product of weights and mask, at an entry, is the masked weight at the shifted column. -/
theorem cols_hidden (i : S7168x4096.Idx) (r c : Fin 7168) (hr : r.val = (i 0).val) (hc : c.val = 2048 + (i 1).val) :
    val_main_v3 (F := Ideal) x1 x2 i = masked x1 x2 r c := by
  rw [val_main_v3_apply, val_main_v0_apply]
  have e : idx_main_v3 i = ix2 r c := funext fun a => Fin.ext (by
    match a with
    | ⟨0, _⟩ => exact hr.symm
    | ⟨1, _⟩ => exact hc.symm)
  rw [e]
  rfl

/-- Columns 6144… likewise. -/
theorem cols_output (i : S7168x1024.Idx) (r c : Fin 7168) (hr : r.val = (i 0).val) (hc : c.val = 6144 + (i 1).val) :
    val_main_v8 (F := Ideal) x1 x2 i = masked x1 x2 r c := by
  rw [val_main_v8_apply, val_main_v0_apply]
  have e : idx_main_v8 i = ix2 r c := funext fun a => Fin.ext (by
    match a with
    | ⟨0, _⟩ => exact hr.symm
    | ⟨1, _⟩ => exact hc.symm)
  rw [e]
  rfl

/-! ## The hidden layer -/

/-- The hidden activation of batch row `b` at hidden unit `j`. -/
def hiddenAt (b : Fin 4096) (j : Fin 4096) : EReal :=
  max (∑ k : Fin 2048, x0 (ix2 b k) * blockXH x1 x2 (ix2 k j)) 0

/-- The host's clamped contraction over all 7168 units is the hidden activation: only the inputs contribute. -/
theorem hidden_eq (i : S4096x4096.Idx) (b : Fin 4096) (j : Fin 4096) (h0 : (i 0).val = b.val) (h1 : (i 1).val = j.val) :
    val_main_v5 (F := Ideal) x0 x1 x2 i = hiddenAt x0 x1 x2 b j := by
  rw [val_main_v5_apply, val_main_v4_apply, clamp_zero]
  show max (∑ k : Fin 7168, val_main_v2 (F := Ideal) x0 (lidx_main_v4 i k) * val_main_v3 (F := Ideal) x1 x2 (ridx_main_v4 i k)) 0 = _
  rw [sum_padded2 (fun k => val_main_v2 (F := Ideal) x0 (lidx_main_v4 i k)) (fun k => val_main_v3 (F := Ideal) x1 x2 (ridx_main_v4 i k))
    (fun k => x0 (ix2 b k))
    (fun k => act0_input x0 _ b k h0 rfl)
    (fun l => act0_rest x0 _ b l h0 rfl)]
  unfold hiddenAt
  congr 1
  refine Finset.sum_congr rfl fun k _ => ?_
  rw [cols_hidden x1 x2 _ ⟨k.val, by omega⟩ ⟨2048 + j.val, by omega⟩ rfl (by show 2048 + j.val = 2048 + (i 1).val; omega)]
  rfl

/-! ## The second padded activation row at a unit -/

/-- At one of the 2048 inputs it is the input, -/
theorem act1_input (j : S4096x7168.Idx) (b : Fin 4096) (k : Fin 2048) (h0 : (j 0).val = b.val) (h1 : (j 1).val = k.val) :
    val_main_v7 (F := Ideal) x0 x1 x2 j = x0 (ix2 b k) := by
  unfold val_main_v7
  exact concatenate_apply_piece (t := S4096x7168) (1 : Fin 2) [⟨S4096x2048, x0⟩, ⟨S4096x4096, val_main_v5 (F := Ideal) x0 x1 x2⟩, ⟨S4096x1024, val_main_v6 (F := Ideal)⟩] concatenates_S4096x2048_S4096x4096_S4096x1024_S4096x7168_d1 j
    0 (by show (0 : Nat) < 3; omega) S4096x2048 x0 rfl rfl 0 rfl (ix2 b k)
    (fun a ha => match a with | ⟨0, _⟩ => h0.symm | ⟨1, _⟩ => absurd rfl ha)
    (by show 0 + k.val = (j 1).val; omega)

/-- at one of the 4096 hidden units the hidden activation, -/
theorem act1_hidden (j : S4096x7168.Idx) (b : Fin 4096) (u : Fin 4096) (h0 : (j 0).val = b.val) (h1 : (j 1).val = 2048 + u.val) :
    val_main_v7 (F := Ideal) x0 x1 x2 j = hiddenAt x0 x1 x2 b u := by
  unfold val_main_v7
  rw [concatenate_apply_piece (t := S4096x7168) (1 : Fin 2) [⟨S4096x2048, x0⟩, ⟨S4096x4096, val_main_v5 (F := Ideal) x0 x1 x2⟩, ⟨S4096x1024, val_main_v6 (F := Ideal)⟩] concatenates_S4096x2048_S4096x4096_S4096x1024_S4096x7168_d1 j
    1 (by show (1 : Nat) < 3; omega) S4096x4096 (val_main_v5 (F := Ideal) x0 x1 x2) rfl rfl 2048 rfl (ix2 b u)
    (fun a ha => match a with | ⟨0, _⟩ => h0.symm | ⟨1, _⟩ => absurd rfl ha)
    (by show 2048 + u.val = (j 1).val; omega)]
  exact hidden_eq x0 x1 x2 _ b u rfl rfl

/-- and at one of the 1024 output units zero. -/
theorem act1_rest (j : S4096x7168.Idx) (b : Fin 4096) (l : Fin 1024) (h0 : (j 0).val = b.val) (h1 : (j 1).val = 2048 + 4096 + l.val) :
    val_main_v7 (F := Ideal) x0 x1 x2 j = 0 := by
  unfold val_main_v7
  rw [concatenate_apply_piece (t := S4096x7168) (1 : Fin 2) [⟨S4096x2048, x0⟩, ⟨S4096x4096, val_main_v5 (F := Ideal) x0 x1 x2⟩, ⟨S4096x1024, val_main_v6 (F := Ideal)⟩] concatenates_S4096x2048_S4096x4096_S4096x1024_S4096x7168_d1 j
    2 (by show (2 : Nat) < 3; omega) S4096x1024 (val_main_v6 (F := Ideal)) rfl rfl 6144 rfl (ix2 b l)
    (fun a ha => match a with | ⟨0, _⟩ => h0.symm | ⟨1, _⟩ => absurd rfl ha)
    (by show 6144 + l.val = (j 1).val; omega)]
  exact pad_output_zero _

/-! ## The result -/

/-- The host program's last stage is the network's result array. -/
theorem reference_is_result : val_main_v9 (F := Ideal) x0 x1 x2 = result x0 x1 x2 := by
  funext i
  rw [val_main_v9_apply]
  rw [sum_padded3 (fun k => val_main_v7 (F := Ideal) x0 x1 x2 (lidx_main_v9 i k)) (fun k => val_main_v8 (F := Ideal) x1 x2 (ridx_main_v9 i k))
    (fun k => x0 (ix2 (i 0) k)) (fun u => hiddenAt x0 x1 x2 (i 0) u)
    (fun k => act1_input x0 x1 x2 _ (i 0) k rfl rfl)
    (fun u => act1_hidden x0 x1 x2 _ (i 0) u rfl rfl)
    (fun l => act1_rest x0 x1 x2 _ (i 0) l rfl rfl)]
  unfold result net
  congr 1
  · refine Finset.sum_congr rfl fun k _ => ?_
    rw [cols_output x1 x2 _ ⟨k.val, by omega⟩ ⟨6144 + (i 1).val, by have := idx2_lt1 i; omega⟩ rfl rfl]
    rfl
  · refine Finset.sum_congr rfl fun u _ => ?_
    rw [cols_output x1 x2 _ ⟨2048 + u.val, by omega⟩ ⟨6144 + (i 1).val, by have := idx2_lt1 i; omega⟩ rfl rfl]
    rfl

end Cert.ReferenceIdeal.RefValue

end
-- ==== Proof.lean ====
/-
  A two-layer masked network, computed two ways, is one function over the extended reals.

  The inputs are a batch x : 4096 × 2048, a weight matrix W and a mask M, both 7168 × 7168 over the 2048 input, 4096
  hidden and 1024 output units. With W ∘ M the entrywise product,
      hidden b j = max (∑ k < 2048, x b k * (W ∘ M) k (2048 + j)) 0,
      out b o    = ∑ k < 2048, x b k * (W ∘ M) k (6144 + o) + ∑ j < 4096, hidden b j * (W ∘ M) (2048 + j) (6144 + o)
  (`Cert.MaskedMlp.result`, Proof/Spec.lean).

  The kernel slices the three blocks of W and of M that these sums read, multiplies slice by slice, and runs a grid
  of sixteen points, each computing 256 rows of `out` by three matrix products into zero accumulators with a clamp
  at zero in between; the changes of float format on the way are the identity over the extended reals. Each point
  writes its rows of `result` (Proof/Payload.lean: the arithmetic at an entry; Proof/KernelValue.lean: the blocks
  each point reads and writes, and that the sixteen row blocks tile the array).

  The reference multiplies the whole matrices, pads the activations with zeros to all 7168 units — the input followed
  by zeros for the hidden layer; the input, the hidden activations and zeros for the output layer — and contracts over
  all 7168 units against a column block of W ∘ M. A sum over the 7168 units is the sum over the inputs plus the sum
  over the hidden units plus the sum over the outputs, and a padded zero times any extended real is zero, so the
  contraction is the two sums above (Proof/RefValue.lean). Nothing here distributes a product over a sum or cancels,
  so no entry need be finite: the precondition is not used.

  The three programs' frames are the generated ones (the reference's is its generated run with the result dropped);
  the idealization rewrote nothing, so there is nothing to preserve.
-/
import proofs.«167280_j53669911330940_2_alg».proof.Defs
import proofs.«167280_j53669911330940_2_alg».proof.Proof.Gen.Kernel
import proofs.«167280_j53669911330940_2_alg».proof.Proof.Gen.Kernel.Skeleton
import proofs.«167280_j53669911330940_2_alg».proof.Proof.Gen.Kernel.Launch
import proofs.«167280_j53669911330940_2_alg».proof.Proof.Gen.Kernel.Points
import proofs.«167280_j53669911330940_2_alg».proof.Proof.Gen.Kernel.Frame
import proofs.«167280_j53669911330940_2_alg».proof.Proof.Gen.KernelIdeal
import proofs.«167280_j53669911330940_2_alg».proof.Proof.Gen.KernelIdeal.Skeleton
import proofs.«167280_j53669911330940_2_alg».proof.Proof.Gen.KernelIdeal.Launch
import proofs.«167280_j53669911330940_2_alg».proof.Proof.Gen.KernelIdeal.Points
import proofs.«167280_j53669911330940_2_alg».proof.Proof.Gen.KernelIdeal.Frame
import proofs.«167280_j53669911330940_2_alg».proof.Proof.Gen.ReferenceIdeal
import proofs.«167280_j53669911330940_2_alg».proof.Proof.Gen.Pre_finite_inputs
import proofs.«167280_j53669911330940_2_alg».proof.Proof.Gen.KernelIdeal.Value
import proofs.«167280_j53669911330940_2_alg».proof.Proof.Gen.ReferenceIdeal.Run
import proofs.«167280_j53669911330940_2_alg».proof.Proof.Gen.ReferenceIdeal.Read
import proofs.«167280_j53669911330940_2_alg».proof.Proof.Spec
import proofs.«167280_j53669911330940_2_alg».proof.Proof.Payload
import proofs.«167280_j53669911330940_2_alg».proof.Proof.KernelValue
import proofs.«167280_j53669911330940_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, W and M both programs end with the network's result of those arguments. -/
theorem algebraic : Cert.algebraic_KernelIdeal_ReferenceIdeal := by
  intro m ρ m' ρ' _ hagree
  refine ⟨fun c => Cert.MaskedMlp.result
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_is_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
